-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x2048x1024, .f32⟩
  | .local _ .vmem, ⟨0, _⟩ => ⟨S1x2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S512x1024 : 0 < S512x1024.numel
  reduces_S512x2048_S512 : S512x2048.Reduces [1] S512
  shapeCasts_S512_S512x1 : S512.ShapeCasts S512x1
  broadcasts_S512x1_S512x2048 : S512x1.Broadcasts S512x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .f32 = 32 ∨ (Rect.block (s := S4x2048x1024) S1x512x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one run of the body leaves behind, as values.

  At the first query tile of a batch (case A) the body computes the batch's scaled queries, keys and values from the
  block of x and the three weight matrices and bias rows, stores each whole into its own scratch array, and then
  attends: it reads 512 rows of the scaled queries back at the tile's row offset, all the keys and all the values, and
  stores the attention result as the output block.  At a later query tile (case B) it stores nothing into the scratch
  arrays and attends over what they already hold.  So in both cases the output block is the attention payload of
  (512 rows of the query scratch, the key scratch, the value scratch), and in case A the three scratch arrays end at
  the three projection payloads of the input blocks.
-/
import proofs.«163360_j33440615367216_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of a [2048, 1024] scratch array that the query tile of grid point i reads: rows 512·(i 1) onwards. -/
def rowsOf (i : grid0.Coords) (X : Vec F S2048x1024 .bf16) : Vec F S512x1024 .bf16 :=
  View.ld X (Rect.unit (s := S2048x1024) (k0_off1 i) S512x1024.size (k0_off1_inb i))

variable (c : Dev nD) (i : grid0.Coords)
  (arg2 : Memref sig .tc .vmem S1x2048x1024 .bf16) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x512x1024 .f32) (harg9 : arg9.IsWhole)
  (arg10 : Memref sig .tc .vmem S2048x1024 .bf16) (harg10 : arg10.IsWhole)
  (arg11 : Memref sig .tc .vmem S2048x1024 .bf16) (harg11 : arg11.IsWhole)
  (arg12 : Memref sig .tc .vmem S2048x1024 .bf16) (harg12 : arg12.IsWhole)
  (x0 : Vec F S1x2048x1024 .bf16) (x1 x2 x3 : Vec F S1024x1024 .bf16) (x4 x5 x6 : Vec F S1x1024 .f32)
  (xs0 xs1 xs2 : Vec F S2048x1024 .bf16)

/-- Case B (a later query tile): the output block is the attention payload of the scratch arrays as found. -/
theorem out_B (hc0 : ¬cond0_0 i) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = k0_pay2 (rowsOf i xs0) xs1 xs2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  rw [View.canon_unit_zero hz3]
  simp only [View.readAt_eq_ld, harg10.read_unread, harg11.read_unread, harg12.read_unread,
    View.ld_unit_zero (S := S2048x1024) hz2]
  rfl

/-- Case A (the first query tile of a batch): the output block is the attention payload of the three projections
    the same run has just stored. -/
theorem out_A (hc0 : cond0_0 i) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = k0_pay2 (rowsOf i (k0_pay4 x0 x1 x4)) (k0_pay5 x0 x2 x5) (k0_pay1 (k0_pay6 x0 x3 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz3]
  rw [View.readAt_writes_junk_eq_canon, View.canon_unit_zero hz2,
    View.readCov_unit_zero (S := S2048x1024) _ hz2, View.readCov_unit_zero (S := S2048x1024) _ hz2]
  simp only [View.readAt_eq_ld, harg2.read_unread, harg3.read_unread, harg4.read_unread, harg5.read_unread,
    harg6.read_unread, harg7.read_unread, harg8.read_unread,
    View.ld_unit_zero (S := S1x2048x1024) hz3, View.ld_unit_zero (S := S1024x1024) hz2, View.ld_unit_zero (S := S1x1024) hz2]
  rfl

/-- Case A leaves the scaled queries of the batch in the first scratch array … -/
theorem scr_A_0 (hc0 : cond0_0 i) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay4 x0 x1 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg3.read_unread, harg6.read_unread,
    View.ld_unit_zero (S := S1x2048x1024) hz3, View.ld_unit_zero (S := S1024x1024) hz2, View.ld_unit_zero (S := S1x1024) hz2]

/-- … the keys in the second … -/
theorem scr_A_1 (hc0 : cond0_0 i) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay5 x0 x2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg4.read_unread, harg7.read_unread,
    View.ld_unit_zero (S := S1x2048x1024) hz3, View.ld_unit_zero (S := S1024x1024) hz2, View.ld_unit_zero (S := S1x1024) hz2]

/-- … and the values in the third. -/
theorem scr_A_2 (hc0 : cond0_0 i) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = k0_pay1 (k0_pay6 x0 x3 x6) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg5.read_unread, harg8.read_unread,
    View.ld_unit_zero (S := S1x2048x1024) hz3, View.ld_unit_zero (S := S1024x1024) hz2, View.ld_unit_zero (S := S1x1024) hz2]

end Cert.KernelIdeal.Pieces

end
-- ==== Proof.Carry.lean ====
/-
  What the three scratch arrays hold from one grid point to the next.

  The grid runs over (batch, query tile), the query tile innermost, four tiles to a batch: point n is tile n mod 4 of
  batch n / 4, and the first tile of its batch is point 4·(n / 4).  Only that first tile stores into the scratch
  arrays; the three later tiles of the batch leave them alone.  So after ANY point n the scratch arrays hold the
  scaled queries, the keys and the values computed from the input blocks at point 4·(n / 4) — by induction on n: at a
  first tile the body has just stored them, at a later tile they are what the point before left, and the point
  before belongs to the same batch.  It follows that the output block at every point is the attention payload of
  those three projections, the queries cut to the tile's 512 rows.
-/
import proofs.«163360_j33440615367216_2_alg».proof.Proof.Pieces

noncomputable section

open Idealize.ShloMosaic Idealize.ShloMosaic.TcCoe Idealize.SL.Sem
open Idealize.ShloMosaic.Pipeline (Dat)

namespace Cert.KernelIdeal.Carry

open Cert.KernelIdeal Cert.KernelIdeal.Gen Cert.KernelIdeal.Pieces

variable {F : FTy → Type} [FloatOps F]
variable (m : (ℓ : Loc nD τ sig) → Buf (Elt F) ℓ)

/-- The first query tile of point n's batch. -/
def base (n : ℕ) (h : n < cfg0.N) : Fin cfg0.N := ⟨4 * (n / 4), lt_of_le_of_lt (Nat.mul_div_le n 4) h⟩

/-- The scaled queries computed from the input blocks at point t … -/
def projQ (c : Dev nD) (t : Fin cfg0.N) : Vec F S2048x1024 .bf16 :=
  k0_pay4 (iblk m c 0 t) (iblk m c 1 t) (iblk m c 4 t)
/-- … the keys … -/
def projK (c : Dev nD) (t : Fin cfg0.N) : Vec F S2048x1024 .bf16 :=
  k0_pay5 (iblk m c 0 t) (iblk m c 2 t) (iblk m c 5 t)
/-- … and the values. -/
def projV (c : Dev nD) (t : Fin cfg0.N) : Vec F S2048x1024 .bf16 :=
  k0_pay1 (k0_pay6 (iblk m c 0 t) (iblk m c 3 t) (iblk m c 6 t))

/-- After any point n the three scratch arrays hold the three projections of the input blocks at the first tile of
    n's batch. -/
theorem scratch_eq (c : Dev nD) : ∀ (n : ℕ) (h : n < cfg0.N),
    (outsAt0 m c n h).2.1 = projQ m c (base n h) ∧ (outsAt0 m c n h).2.2.1 = projK m c (base n h)
      ∧ (outsAt0 m c n h).2.2.2 = projV m c (base n h) := by
  intro n
  induction n with
  | zero =>
    intro h
    have hb : base 0 h = ⟨0, h⟩ := Fin.ext (by show 4 * (0 / 4) = 0; omega)
    rw [hb, outsAt0_A m c ⟨0, h⟩ (Nat.zero_mod 4)]
    dsimp only
    unfold projQ projK projV
    exact ⟨scr_A_0 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) ((hcond0_0 ⟨0, h⟩).mpr (Nat.zero_mod 4)),
        scr_A_1 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) ((hcond0_0 ⟨0, h⟩).mpr (Nat.zero_mod 4)),
        scr_A_2 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) ((hcond0_0 ⟨0, h⟩).mpr (Nat.zero_mod 4))⟩
  | succ n ih =>
    intro h
    by_cases h0 : (n + 1) % 4 = 0
    · have hb : base (n + 1) h = ⟨n + 1, h⟩ := Fin.ext (by show 4 * ((n + 1) / 4) = n + 1; omega)
      rw [hb, outsAt0_A m c ⟨n + 1, h⟩ h0]
      dsimp only
      unfold projQ projK projV
      exact ⟨scr_A_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) ((hcond0_0 ⟨n + 1, h⟩).mpr h0),
        scr_A_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) ((hcond0_0 ⟨n + 1, h⟩).mpr h0),
        scr_A_2 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) ((hcond0_0 ⟨n + 1, h⟩).mpr h0)⟩
    · have hb : base (n + 1) h = base n (Nat.lt_of_succ_lt h) := Fin.ext (by show 4 * ((n + 1) / 4) = 4 * (n / 4); omega)
      rw [hb, outsAt0_B m c ⟨n + 1, h⟩ h0]
      dsimp only
      unfold sout0_B_0 sout0_B_1 sout0_B_2
      obtain ⟨eq, ek, ev⟩ := ih (Nat.lt_of_succ_lt h)
      refine ⟨?_, ?_, ?_⟩
      · show (outsAt0 m c n _).2.1 = _
        exact eq
      · show (outsAt0 m c n _).2.2.1 = _
        exact ek
      · show (outsAt0 m c n _).2.2.2 = _
        exact ev

/-- So the output block at any point t is the attention payload of the projections of t's batch, the queries cut to
    the 512 rows of t's tile. -/
theorem out_eq (c : Dev nD) (t : Fin cfg0.N) :
    (outsAt0 m c t.val t.isLt).1
      = k0_pay2 (rowsOf (grid0.coords t) (projQ m c (base t.val t.isLt))) (projK m c (base t.val t.isLt))
          (projV m c (base t.val t.isLt)) := by
  by_cases h0 : t.val % 4 = 0
  · have hb : base t.val t.isLt = t := Fin.ext (by show 4 * (t.val / 4) = t.val; omega)
    rw [hb, outsAt0_A m c t h0]
    dsimp only
    unfold projQ projK projV
    exact out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h0)
  · have hp : t.val - 1 < cfg0.N := Nat.lt_of_le_of_lt (Nat.sub_le _ _) t.isLt
    have hb : base t.val t.isLt = base (t.val - 1) hp :=
      Fin.ext (by show 4 * (t.val / 4) = 4 * ((t.val - 1) / 4); omega)
    obtain ⟨eq, ek, ev⟩ := scratch_eq m c (t.val - 1) hp
    rw [hb, ← eq, ← ek, ← ev, outsAt0_B m c t h0]
    dsimp only
    exact out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t)
      (outsAt0 m c (t.val - 1) hp).2.1 (outsAt0 m c (t.val - 1) hp).2.2.1 (outsAt0 m c (t.val - 1) hp).2.2.2
      (fun h => h0 ((hcond0_0 t).mp h))

end Cert.KernelIdeal.Carry

end
-- ==== Proof.Spec.lean ====
/-
  What both programs compute, stated once, entry by entry, over the extended reals.

  Single-head attention on x : [4, 2048, 1024] with three linear layers.  For batch b:
    Q b s f = (∑ e, x b s e · Wq f e) + bq f,   K and V likewise;
    score b q k = (∑ e, Q b q e · K b k e) / √1024;
    row q of the softmax: m = max over k of the scores (from -∞), p k = exp (score k - m), l = ∑ k, p k;
    result b q e = ∑ k, (p k / l) · V b k e.
  The weights are normalised before the weighted sum of the values, in both programs.
-/
import Idealize.ShloMosaic.PureOps.Ideal
import Idealize.ShloMosaic.Lib.ValueIdx

noncomputable section

namespace Cert.Attention

open Idealize.ShloMosaic Idealize.ShloMosaic.ValueIdx

/-- The input and the result: [4, 2048, 1024]. -/
abbrev Arr3 := (⟨3, ![4, 2048, 1024]⟩ : Shape).Idx → EReal
/-- A weight matrix: [1024, 1024], row f holding the weights of output feature f. -/
abbrev Mat := (⟨2, ![1024, 1024]⟩ : Shape).Idx → EReal
/-- A bias vector: [1024]. -/
abbrev Bias := (⟨1, ![1024]⟩ : Shape).Idx → EReal

/-- A linear layer at one entry: row (b, s) of x against row f of the weight, plus the bias at f. -/
def proj (x : Arr3) (w : Mat) (bias : Bias) (b : Fin 4) (s : Fin 2048) (f : Fin 1024) : EReal :=
  (∑ e : Fin 1024, x (ix3 b s e) * w (ix2 f e)) + bias (ix1 f)

/-- A row's maximum: the fold of max over the row from -∞ (the f32 word of -∞). -/
def rowMax (s : Fin 2048 → EReal) : EReal :=
  (Finset.univ : Finset (Fin 2048)).fold max (Ideal.ofBits .f32 0xFF800000#32) s

/-- One softmax row s attended over one column of values v: ∑ k, (exp (s k - m) / ∑ j, exp (s j - m)) · v k. -/
def attendRow (s v : Fin 2048 → EReal) : EReal :=
  ∑ k : Fin 2048, Ideal.div (Ideal.exp (s k - rowMax s)) (∑ j : Fin 2048, Ideal.exp (s j - rowMax s)) * v k

/-- The score of query q against key k in batch b: the queries' and keys' inner product divided by √1024. -/
def score (x : Arr3) (wq : Mat) (bq : Bias) (wk : Mat) (bk : Bias) (b : Fin 4) (q k : Fin 2048) : EReal :=
  Ideal.div (∑ e : Fin 1024, proj x wq bq b q e * proj x wk bk b k e) (Ideal.sqrt (Ideal.ofBits .f32 0x44800000#32))

/-- The whole result, entry (b, q, e). -/
def G (x : Arr3) (wq : Mat) (bq : Bias) (wk : Mat) (bk : Bias) (wv : Mat) (bv : Bias) : Arr3 :=
  fun i => attendRow (fun k => score x wq bq wk bk (i 0) (i 1) k) (fun k => proj x wv bv (i 0) k (i 2))

theorem G_apply (x : Arr3) (wq : Mat) (bq : Bias) (wk : Mat) (bk : Bias) (wv : Mat) (bv : Bias)
    (b : Fin 4) (q : Fin 2048) (e : Fin 1024) :
    G x wq bq wk bk wv bv (ix3 b q e)
      = attendRow (fun k => score x wq bq wk bk b q k) (fun k => proj x wv bv b k e) := rfl

end Cert.Attention

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibRowsDot.lean ====
/-
  A matrix product taken against the ROWS of the right operand, read at one entry, over the extended reals.

  For the dimension numbers of an M × K by N × K product (DotDims.transposedRhs M K N: both operands contracted on
  their second axis, no batch axis) the entry (p, q) of the product is ∑ k, lhs (p, k) * rhs (q, k): row p of the
  left operand against row q of the right one, which is how scores of queries against keys are formed without
  transposing the keys.  The contraction index of such a product has one coordinate, and the operands' indices at
  output (p, q) and contraction coordinate k are (p, k) and (q, k).
-/
import Idealize.ShloMosaic.Lib.ValueIdx
import Idealize.ShloMosaic.PureOps.Ideal.Laws

noncomputable section

open scoped BigOperators

namespace Cert.RowsDot

open Idealize.ShloMosaic Idealize.ShloMosaic.ValueIdx

variable {M K N : Nat}

/-- The contraction of such a product runs over one axis … -/
theorem contr_rank : (DotDims.transposedRhs M K N).contr.rank = 1 := rfl

/-- … of extent K. -/
theorem contr_size : (DotDims.transposedRhs M K N).contr.size ⟨0, Nat.one_pos⟩ = K := rfl

/-- The contraction index whose one coordinate is k. -/
abbrev kidx (k : Fin K) : (DotDims.transposedRhs M K N).contr.Idx :=
  (contrEquiv1 (DotDims.transposedRhs M K N) K contr_rank contr_size).symm k

/-- At output (p, q) and contraction coordinate k the left operand is read at (p, k). -/
theorem lhsIdx_eq (p : Fin M) (q : Fin N) (k : Fin K) :
    (DotDims.transposedRhs M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.transposedRhs M K N).lhsBatch from List.not_mem_nil),
      dif_pos (show (⟨0, h0⟩ : Fin (⟨2, ![M, K]⟩ : Shape).rank) ∈ (DotDims.transposedRhs M K N).lhsNonContracting from
        List.mem_singleton.mpr rfl)]
    rfl
  | ⟨1, _⟩ =>
    exact ((DotDims.transposedRhs M K N).lhsIdx_val_of_single (cl := 1) rfl (ix2 p q) (kidx k)).trans
      (contrEquiv1_symm_val (DotDims.transposedRhs M K N) K contr_rank contr_size k)

/-- At output (p, q) and contraction coordinate k the right operand is read at (q, k). -/
theorem rhsIdx_eq (p : Fin M) (q : Fin N) (k : Fin K) :
    (DotDims.transposedRhs M K N).rhsIdx (ix2 p q) (kidx k) = ix2 q k := by
  funext a
  refine Fin.ext ?_
  match a with
  | ⟨0, h0⟩ =>
    unfold DotDims.rhsIdx
    rw [dif_neg (show ¬(⟨0, h0⟩ : Fin (⟨2, ![N, K]⟩ : Shape).rank) ∈ (DotDims.transposedRhs M K N).rhsBatch from List.not_mem_nil),
      dif_pos (show (⟨0, h0⟩ : Fin (⟨2, ![N, K]⟩ : Shape).rank) ∈ (DotDims.transposedRhs M K N).rhsNonContracting from
        List.mem_singleton.mpr rfl)]
    rfl
  | ⟨1, _⟩ =>
    exact ((DotDims.transposedRhs M K N).rhsIdx_val_of_single (cr := 1) rfl (ix2 p q) (kidx k)).trans
      (contrEquiv1_symm_val (DotDims.transposedRhs M K N) K contr_rank contr_size k)

/-- The sum over the contraction index of such a product is the sum over its one coordinate. -/
theorem sum_contr (f : (⟨2, ![M, K]⟩ : Shape).Idx → (⟨2, ![N, K]⟩ : Shape).Idx → EReal) (p : Fin M) (q : Fin N) :
    ∑ κ : (DotDims.transposedRhs M K N).contr.Idx,
        f ((DotDims.transposedRhs M K N).lhsIdx (ix2 p q) κ) ((DotDims.transposedRhs M K N).rhsIdx (ix2 p q) κ)
      = ∑ k : Fin K, f (ix2 p k) (ix2 q k) := by
  rw [← Equiv.sum_comp (contrEquiv1 (DotDims.transposedRhs M K N) K contr_rank contr_size).symm]
  refine Finset.sum_congr rfl fun k _ => ?_
  rw [lhsIdx_eq p q k, rhsIdx_eq p q k]

/-- A kernel's product of this form into the zero accumulator, at entry (p, q): the sum over k of
    lhs (p, k) * rhs (q, k), whatever the operands' formats (a change of format is the identity on the extended
    reals). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    matmul (DotDims.transposedRhs M K N) prec lhs rhs (constant (F := Ideal) ⟨2, ![M, N]⟩ .f32 0x00000000#32) (ix2 p q)
      = ∑ k : Fin K, lhs (ix2 p k) * rhs (ix2 q k) := by
  show FloatOps.matmul (DotDims.transposedRhs M K N) prec lhs rhs (constant (F := Ideal) ⟨2, ![M, N]⟩ .f32 0x00000000#32) (ix2 p q) = _
  rw [Ideal.matmul_constant_zero_apply]
  exact sum_contr (fun a b => lhs a * rhs b) p q

end Cert.RowsDot

end
-- ==== Proof.PayValue.lean ====
/-
  The body's pure terms read at one entry, over the extended reals.

  A projection payload is a linear layer applied to every row of the block of x: entry (s, f) is
  (∑ e, x (0, s, e) · W (e, f)) + bias (0, f), where W is the weight matrix already transposed (its row e holds the
  weights of input feature e), and for the queries that number times the scale word 1/32.
  The attention payload takes 512 query rows, all 2048 key rows and all 2048 value rows: entry (0, p, e) is the
  softmax row of the scores (∑ d, q (p, d) · k (j, d)) over j, attended over column e of the values.
  A change of float format is the identity on the extended reals, so the casts to bf16 disappear.
-/
import proofs.«163360_j33440615367216_2_alg».proof.Proof.Gen.KernelIdeal.Skeleton
import proofs.«163360_j33440615367216_2_alg».proof.Proof.Spec
import proofs.«163360_j33440615367216_2_alg».proof.Proof.LibRowReduce
import proofs.«163360_j33440615367216_2_alg».proof.Proof.LibPlainMatmul
import proofs.«163360_j33440615367216_2_alg».proof.Proof.LibRowsDot
import Idealize.ShloMosaic.Lib.ValueLayout
import Idealize.ShloMosaic.Lib.ValueIdx
import Idealize.ShloMosaic.Lib.Pipeline.Value

noncomputable section

namespace Cert.KernelIdeal.PayValue

open Cert.KernelIdeal Cert.KernelIdeal.Gen Idealize.ShloMosaic Idealize.ShloMosaic.ValueIdx Cert.Attention

/-- The projections' product is a plain [2048, 1024] × [1024, 1024] one … -/
theorem dot_proj : dot_S2048x1024_S1024x1024_S2048x1024_1_0_0_1_n_n = DotDims.plain 2048 1024 1024 := rfl
/-- … the scores' product takes 512 rows against 2048 rows, both contracted on their 1024 entries … -/
theorem dot_scores : dot_S512x1024_S2048x1024_S512x2048_1_1_0_0_n_n = DotDims.transposedRhs 512 1024 2048 := rfl
/-- … and the weighted sum of the values is a plain [512, 2048] × [2048, 1024] one. -/
theorem dot_av : dot_S512x2048_S2048x1024_S512x1024_1_0_0_1_n_n = DotDims.plain 512 2048 1024 := rfl

/-- The exponential of a vector, at an entry. -/
theorem exp_apply {s : Shape} {φ : FTy} (v : FVec Ideal s φ) (i : s.Idx) : exp v i = Ideal.exp (v i) := rfl

/-- The lane maximum of row p of a [512, 2048] block, from the word of -∞: the fold of max over the row. -/
theorem rowMax_read (X : FVec Ideal S512x2048 .f32) (h : S512x2048.Reduces [1] S512) (hφ : FKind.Formats .f32)
    (hacc : (0xFF800000#32 : BitVec 32) = 0xFF800000#32) (p : Fin 512) :
    multiReduction .maximumf [1] S512 X 0xFF800000#32 h hφ hacc (ix1 p)
      = (Finset.univ : Finset (Fin 2048)).fold max (Ideal.ofBits .f32 0xFF800000#32) (fun j => X (ix2 p j)) :=
  Cert.RowReduce.multiReduction_maximumf_row X 0xFF800000#32 h hφ hacc p

/-- The lane sum of row p of a [512, 2048] block, from the zero word: the sum over the row. -/
theorem rowSum_read (X : FVec Ideal S512x2048 .f32) (h : S512x2048.Reduces [1] S512) (hφ : FKind.Formats .f32)
    (hacc : (0x00000000#32 : BitVec 32) = 0x00000000#32) (p : Fin 512) :
    multiReduction .add [1] S512 X 0x00000000#32 h hφ hacc (ix1 p) = ∑ j : Fin 2048, X (ix2 p j) :=
  Cert.RowReduce.multiReduction_add_row X 0x00000000#32 h hφ hacc p

/-- A linear layer on a block of rows of x, at entry (s, f): the weight matrix is indexed (input feature, output
    feature) and the bias is a row. -/
def lin (x0 : Vec Ideal S1x2048x1024 .bf16) (w : FVec Ideal S1024x1024 .bf16) (bias : FVec Ideal S1x1024 .f32)
    (s : Fin 2048) (f : Fin 1024) : EReal :=
  (∑ e : Fin 1024, x0 (ix3 (0 : Fin 1) s e) * w (ix2 e f)) + bias (ix2 (0 : Fin 1) f)

/-- The product of the block with a weight matrix plus the bias row broadcast down the rows, at entry (s, f). -/
theorem linear_apply (x0 : Vec Ideal S1x2048x1024 .bf16) (w : FVec Ideal S1024x1024 .bf16) (bias : FVec Ideal S1x1024 .f32)
    (s : Fin 2048) (f : Fin 1024) :
    addf (matmul dot_S2048x1024_S1024x1024_S2048x1024_1_0_0_1_n_n none (k0_pay3 (F := Ideal) x0)
          (shapeCast S1024x1024 w shapeCasts_S1024x1024_S1024x1024) (constant S2048x1024 .f32 0x00000000#32))
        (broadcastTo S2048x1024 (shapeCast S1x1024 bias shapeCasts_S1x1024_S1x1024) broadcasts_S1x1024_S2048x1024) (ix2 s f)
      = lin x0 w bias s f := by
  rw [addf_apply, shapeCast_self, shapeCast_self, dot_proj, Cert.PlainMatmul.matmul_zero_apply, broadcastTo_1b_ab_apply]
  unfold lin k0_pay3
  simp only [shapeCast_1ab_ab_apply]

/-- The scaled queries' payload at entry (s, f). -/
theorem pay4_apply (x0 : Vec Ideal S1x2048x1024 .bf16) (w : FVec Ideal S1024x1024 .bf16) (bias : FVec Ideal S1x1024 .f32)
    (s : Fin 2048) (f : Fin 1024) :
    k0_pay4 (F := Ideal) x0 w bias (ix2 s f) = lin x0 w bias s f * Ideal.ofBits .f32 0x3D000000#32 := by
  unfold k0_pay4
  try dsimp only
  rw [shapeCast_self, truncf_apply, mulf_apply, linear_apply]
  rfl

/-- The keys' payload at entry (s, f). -/
theorem pay5_apply (x0 : Vec Ideal S1x2048x1024 .bf16) (w : FVec Ideal S1024x1024 .bf16) (bias : FVec Ideal S1x1024 .f32)
    (s : Fin 2048) (f : Fin 1024) :
    k0_pay5 (F := Ideal) x0 w bias (ix2 s f) = lin x0 w bias s f := by
  unfold k0_pay5
  try dsimp only
  rw [shapeCast_self, truncf_apply, linear_apply]

/-- The values' payload at entry (s, f). -/
theorem pay6_apply (x0 : Vec Ideal S1x2048x1024 .bf16) (w : FVec Ideal S1024x1024 .bf16) (bias : FVec Ideal S1x1024 .f32)
    (s : Fin 2048) (f : Fin 1024) :
    k0_pay1 (F := Ideal) (k0_pay6 x0 w bias) (ix2 s f) = lin x0 w bias s f := by
  unfold k0_pay1 k0_pay6
  try dsimp only
  rw [shapeCast_self, truncf_apply, linear_apply]

/-- The maximum of row p of the scores of 512 query rows against 2048 key rows: the fold of max, from the word of
    -∞, of the inner products of query row p with each key row. -/
theorem scoreMax (q : FVec Ideal S512x1024 .bf16) (k : FVec Ideal S2048x1024 .bf16) (h : S512x2048.Reduces [1] S512)
    (hφ : FKind.Formats .f32) (hacc : (0xFF800000#32 : BitVec 32) = 0xFF800000#32) (p : Fin 512) :
    multiReduction .maximumf [1] S512
        (matmul (DotDims.transposedRhs 512 1024 2048) none q k (constant (F := Ideal) S512x2048 .f32 0x00000000#32))
        0xFF800000#32 h hφ hacc (ix1 p)
      = (Finset.univ : Finset (Fin 2048)).fold max (Ideal.ofBits .f32 0xFF800000#32)
          (fun j => ∑ d : Fin 1024, q (ix2 p d) * k (ix2 j d)) :=
  (rowMax_read _ h hφ hacc p).trans (by simp only [Cert.RowsDot.matmul_zero_apply])

/-- The attention payload at entry (0, p, e): the softmax row of query row p against all key rows, attended over
    column e of the values. -/
theorem pay2_apply (q : Vec Ideal S512x1024 .bf16) (k v : Vec Ideal S2048x1024 .bf16) (p : Fin 512) (e : Fin 1024) :
    k0_pay2 (F := Ideal) q k v (ix3 (0 : Fin 1) p e)
      = attendRow (fun j => ∑ d : Fin 1024, q (ix2 p d) * k (ix2 j d)) (fun j => v (ix2 j e)) := by
  unfold k0_pay2
  try dsimp only
  rw [shapeCast_ab_1ab_apply, dot_av, Cert.PlainMatmul.matmul_zero_apply, dot_scores]
  unfold attendRow rowMax
  refine Finset.sum_congr rfl fun j _ => congrArg (· * v (ix2 j e)) ?_
  rw [truncf_apply, divf_apply]
  refine congrArg₂ Ideal.div ?_ ?_
  · rw [exp_apply, subf_apply, Cert.RowReduce.broadcastTo_column_apply, Cert.RowsDot.matmul_zero_apply]
    exact congrArg (fun M => Ideal.exp ((∑ d : Fin 1024, q (ix2 p d) * k (ix2 j d)) - M)) (scoreMax q k _ _ _ p)
  · rw [Cert.RowReduce.broadcastTo_column_apply]
    refine (rowSum_read _ _ _ _ p).trans (Finset.sum_congr rfl fun x _ => ?_)
    rw [exp_apply, subf_apply, Cert.RowReduce.broadcastTo_column_apply, Cert.RowsDot.matmul_zero_apply]
    exact congrArg (fun M => Ideal.exp ((∑ d : Fin 1024, q (ix2 p d) * k (ix2 x d)) - M)) (scoreMax q k _ _ _ p)

end Cert.KernelIdeal.PayValue

end
-- ==== Proof.Blocks.lean ====
/-
  The input blocks, read at an entry as entries of the ARGUMENT arrays.

  Before the region the host casts x to bf16 (the identity on the extended reals), transposes each weight matrix and
  casts it, and lays each bias vector out as a one-row matrix.  The region's windows then stage: the whole [2048, 1024]
  slab of x of the point's batch (batch t / 4 at point t), each transposed weight whole, each bias row whole.  So a
  block entry is an entry of an argument: x at (t / 4, s, e); a weight at (f, e) for the block's (e, f); a bias at f.
  From that, each projection carried in a scratch array is, entry by entry, the linear layer of the specification at
  batch t / 4 (the queries' one times the word of 1/32).  The index maps and the query tile's row offset are decided
  once over the sixteen grid points.
-/
import proofs.«163360_j33440615367216_2_alg».proof.Proof.Carry
import proofs.«163360_j33440615367216_2_alg».proof.Proof.PayValue
import Idealize.ShloMosaic.Lib.Pipeline.Value
import Idealize.ShloMosaic.Lib.StableHlo.Run
import Idealize.ShloMosaic.Lib.ValueLayout
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Idealize.ShloMosaic.StableHlo
open Cert.KernelIdeal.Carry Cert.KernelIdeal.PayValue Cert.Attention

variable (m : (ℓ : Loc nD τ sig) → Buf (Elt Ideal) ℓ) (c : Dev nD)

/-- The printed index maps and the query tile's row offset, decided over the sixteen grid points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = t.val % 4 ∧ win0_7.index t (2 : Fin 3) = 0
    ∧ k0_off1 (grid0.coords t) (0 : Fin 2) = 512 * (t.val % 4) ∧ k0_off1 (grid0.coords t) (1 : Fin 2) = 0 :=
  (by decide +kernel : ∀ t : Fin grid0.N, _)

/-! ## What the host wrote before the region -/

/-- x cast to bf16. -/
theorem V_main_v0 : @Eq (S4x2048x1024.Idx → EReal) (V m c main_v0)
    (truncf (F := Ideal) .bf16 (m ((c : Thread nD τ).loc main_arg0) : FVec Ideal S4x2048x1024 .f32) bitsLt_bf16_f32) := by
  dsimp only [Gen.V, Gen.hostOps0]; after_results

/-- The queries' weight, transposed and cast. -/
theorem V_main_v2 : @Eq (S1024x1024.Idx → EReal) (V m c main_v2)
    (truncf (F := Ideal) .bf16 (transpose S1024x1024 [1, 0] (m ((c : Thread nD τ).loc main_arg1) : FVec Ideal S1024x1024 .f32)
      transposes_S1024x1024_S1024x1024_1_0) bitsLt_bf16_f32) := by
  dsimp only [Gen.V, Gen.hostOps0]; after_results

/-- The keys' weight, transposed and cast. -/
theorem V_main_v4 : @Eq (S1024x1024.Idx → EReal) (V m c main_v4)
    (truncf (F := Ideal) .bf16 (transpose S1024x1024 [1, 0] (m ((c : Thread nD τ).loc main_arg3) : FVec Ideal S1024x1024 .f32)
      transposes_S1024x1024_S1024x1024_1_0) bitsLt_bf16_f32) := by
  dsimp only [Gen.V, Gen.hostOps0]; after_results

/-- The values' weight, transposed and cast. -/
theorem V_main_v6 : @Eq (S1024x1024.Idx → EReal) (V m c main_v6)
    (truncf (F := Ideal) .bf16 (transpose S1024x1024 [1, 0] (m ((c : Thread nD τ).loc main_arg5) : FVec Ideal S1024x1024 .f32)
      transposes_S1024x1024_S1024x1024_1_0) bitsLt_bf16_f32) := by
  dsimp only [Gen.V, Gen.hostOps0]; after_results

/-- The queries' bias as a row. -/
theorem V_main_v7 : (V m c main_v7 : S1x1024.Idx → EReal)
    = shapeCast S1x1024 (m ((c : Thread nD τ).loc main_arg2)) shapeCasts_S1024_S1x1024 := by
  dsimp only [Gen.V, Gen.hostOps0]; after_results; rfl

/-- The keys' bias as a row. -/
theorem V_main_v8 : (V m c main_v8 : S1x1024.Idx → EReal)
    = shapeCast S1x1024 (m ((c : Thread nD τ).loc main_arg4)) shapeCasts_S1024_S1x1024 := by
  dsimp only [Gen.V, Gen.hostOps0]; after_results; rfl

/-- The values' bias as a row. -/
theorem V_main_v9 : (V m c main_v9 : S1x1024.Idx → EReal)
    = shapeCast S1x1024 (m ((c : Thread nD τ).loc main_arg6)) shapeCasts_S1024_S1x1024 := by
  dsimp only [Gen.V, Gen.hostOps0]; after_results; rfl

/-! ## The blocks at an entry -/

/-- The batch of grid point t. -/
def batchOf (t : Fin cfg0.N) : Fin 4 := ⟨t.val / 4, by have h := t.isLt; have hN : cfg0.N = 16 := N_0; omega⟩

/-- Block of window 0 (the slab of x of the point's batch): entry (0, s, e) is x at (t / 4, s, e). -/
theorem xblk_apply (t : Fin cfg0.N) (s : Fin 2048) (e : Fin 1024) :
    iblk m c 0 t (ix3 (0 : Fin 1) s e) = m ((c : Thread nD τ).loc main_arg0) (ix3 (batchOf t) s e) := by
  obtain ⟨e0, e1, e2, -⟩ := idx_facts t
  have hemb : ((cfg0.win 0).blk t).view.emb (ix3 (0 : Fin 1) s e) = ix3 (batchOf t) s e := funext fun a => Fin.ext (by
    match a with
    | ⟨0, _⟩ => show win0_0.index t (0 : Fin 3) * 1 + 1 * 0 = t.val / 4; omega
    | ⟨1, _⟩ => show win0_0.index t (1 : Fin 3) * 2048 + 1 * s.val = s.val; omega
    | ⟨2, _⟩ => show win0_0.index t (2 : Fin 3) * 1024 + 1 * e.val = e.val; omega)
  show V m c main_v0 (((cfg0.win 0).blk t).view.emb (ix3 (0 : Fin 1) s e)) = _
  rw [hemb]
  exact congrFun (V_main_v0 m c) (ix3 (batchOf t) s e)

/-- Block of window 1 (the queries' weight, transposed): entry (e, f) is the argument's entry (f, e): the host transposed it (and changed its
    format, which is the identity here). -/
theorem wqblk_apply (t : Fin cfg0.N) (e f : Fin 1024) :
    iblk m c 1 t (ix2 e f) = m ((c : Thread nD τ).loc main_arg1) (ix2 f e) := by
  obtain ⟨-, -, -, e0, e1, -⟩ := idx_facts t
  have hemb : ((cfg0.win 1).blk t).view.emb (ix2 e f) = ix2 e f := funext fun a => Fin.ext (by
    match a with
    | ⟨0, _⟩ => show win0_1.index t (0 : Fin 2) * 1024 + 1 * e.val = e.val; omega
    | ⟨1, _⟩ => show win0_1.index t (1 : Fin 2) * 1024 + 1 * f.val = f.val; omega)
  show V m c main_v2 (((cfg0.win 1).blk t).view.emb (ix2 e f)) = _
  rw [hemb]
  refine (congrFun (V_main_v2 m c) (ix2 e f)).trans ?_
  exact transpose_ix2_apply _ _ e f

/-- Block of window 2 (the keys' weight, transposed): entry (e, f) is the argument's entry (f, e): the host transposed it (and changed its
    format, which is the identity here). -/
theorem wkblk_apply (t : Fin cfg0.N) (e f : Fin 1024) :
    iblk m c 2 t (ix2 e f) = m ((c : Thread nD τ).loc main_arg3) (ix2 f e) := by
  obtain ⟨-, -, -, -, -, e0, e1, -⟩ := idx_facts t
  have hemb : ((cfg0.win 2).blk t).view.emb (ix2 e f) = ix2 e f := funext fun a => Fin.ext (by
    match a with
    | ⟨0, _⟩ => show win0_2.index t (0 : Fin 2) * 1024 + 1 * e.val = e.val; omega
    | ⟨1, _⟩ => show win0_2.index t (1 : Fin 2) * 1024 + 1 * f.val = f.val; omega)
  show V m c main_v4 (((cfg0.win 2).blk t).view.emb (ix2 e f)) = _
  rw [hemb]
  refine (congrFun (V_main_v4 m c) (ix2 e f)).trans ?_
  exact transpose_ix2_apply _ _ e f

/-- Block of window 3 (the values' weight, transposed): entry (e, f) is the argument's entry (f, e): the host transposed it (and changed its
    format, which is the identity here). -/
theorem wvblk_apply (t : Fin cfg0.N) (e f : Fin 1024) :
    iblk m c 3 t (ix2 e f) = m ((c : Thread nD τ).loc main_arg5) (ix2 f e) := by
  obtain ⟨-, -, -, -, -, -, -, e0, e1, -⟩ := idx_facts t
  have hemb : ((cfg0.win 3).blk t).view.emb (ix2 e f) = ix2 e f := funext fun a => Fin.ext (by
    match a with
    | ⟨0, _⟩ => show win0_3.index t (0 : Fin 2) * 1024 + 1 * e.val = e.val; omega
    | ⟨1, _⟩ => show win0_3.index t (1 : Fin 2) * 1024 + 1 * f.val = f.val; omega)
  show V m c main_v6 (((cfg0.win 3).blk t).view.emb (ix2 e f)) = _
  rw [hemb]
  refine (congrFun (V_main_v6 m c) (ix2 e f)).trans ?_
  exact transpose_ix2_apply _ _ e f

/-- Block of window 4 (the queries' bias row): entry (0, f) is the argument's entry f: the host laid the vector out as a row. -/
theorem bqblk_apply (t : Fin cfg0.N) (f : Fin 1024) :
    iblk m c 4 t (ix2 (0 : Fin 1) f) = m ((c : Thread nD τ).loc main_arg2) (ix1 f) := by
  obtain ⟨-, -, -, -, -, -, -, -, -, e0, e1, -⟩ := idx_facts t
  have hemb : ((cfg0.win 4).blk t).view.emb (ix2 (0 : Fin 1) f) = ix2 (0 : Fin 1) f := funext fun a => Fin.ext (by
    match a with
    | ⟨0, _⟩ => show win0_4.index t (0 : Fin 2) * 1 + 1 * 0 = 0; omega
    | ⟨1, _⟩ => show win0_4.index t (1 : Fin 2) * 1024 + 1 * f.val = f.val; omega)
  show V m c main_v7 (((cfg0.win 4).blk t).view.emb (ix2 (0 : Fin 1) f)) = _
  rw [hemb]
  refine (congrFun (V_main_v7 m c) (ix2 (0 : Fin 1) f)).trans ?_
  exact shapeCast_a_1a_apply _ _ (0 : Fin 1) f

/-- Block of window 5 (the keys' bias row): entry (0, f) is the argument's entry f: the host laid the vector out as a row. -/
theorem bkblk_apply (t : Fin cfg0.N) (f : Fin 1024) :
    iblk m c 5 t (ix2 (0 : Fin 1) f) = m ((c : Thread nD τ).loc main_arg4) (ix1 f) := by
  obtain ⟨-, -, -, -, -, -, -, -, -, -, -, e0, e1, -⟩ := idx_facts t
  have hemb : ((cfg0.win 5).blk t).view.emb (ix2 (0 : Fin 1) f) = ix2 (0 : Fin 1) f := funext fun a => Fin.ext (by
    match a with
    | ⟨0, _⟩ => show win0_5.index t (0 : Fin 2) * 1 + 1 * 0 = 0; omega
    | ⟨1, _⟩ => show win0_5.index t (1 : Fin 2) * 1024 + 1 * f.val = f.val; omega)
  show V m c main_v8 (((cfg0.win 5).blk t).view.emb (ix2 (0 : Fin 1) f)) = _
  rw [hemb]
  refine (congrFun (V_main_v8 m c) (ix2 (0 : Fin 1) f)).trans ?_
  exact shapeCast_a_1a_apply _ _ (0 : Fin 1) f

/-- Block of window 6 (the values' bias row): entry (0, f) is the argument's entry f: the host laid the vector out as a row. -/
theorem bvblk_apply (t : Fin cfg0.N) (f : Fin 1024) :
    iblk m c 6 t (ix2 (0 : Fin 1) f) = m ((c : Thread nD τ).loc main_arg6) (ix1 f) := by
  obtain ⟨-, -, -, -, -, -, -, -, -, -, -, -, -, e0, e1, -⟩ := idx_facts t
  have hemb : ((cfg0.win 6).blk t).view.emb (ix2 (0 : Fin 1) f) = ix2 (0 : Fin 1) f := funext fun a => Fin.ext (by
    match a with
    | ⟨0, _⟩ => show win0_6.index t (0 : Fin 2) * 1 + 1 * 0 = 0; omega
    | ⟨1, _⟩ => show win0_6.index t (1 : Fin 2) * 1024 + 1 * f.val = f.val; omega)
  show V m c main_v9 (((cfg0.win 6).blk t).view.emb (ix2 (0 : Fin 1) f)) = _
  rw [hemb]
  refine (congrFun (V_main_v9 m c) (ix2 (0 : Fin 1) f)).trans ?_
  exact shapeCast_a_1a_apply _ _ (0 : Fin 1) f

/-! ## The carried projections at an entry -/

/-- The scaled queries computed from the blocks at point t: the specification's linear layer at batch t / 4, times
    the word of 1/32. -/
theorem projQ_apply (t : Fin cfg0.N) (s : Fin 2048) (f : Fin 1024) :
    projQ m c t (ix2 s f)
      = proj (m ((c : Thread nD τ).loc main_arg0)) (m ((c : Thread nD τ).loc main_arg1)) (m ((c : Thread nD τ).loc main_arg2))
          (batchOf t) s f * Ideal.ofBits .f32 0x3D000000#32 := by
  unfold projQ
  refine (pay4_apply (iblk m c 0 t) (iblk m c 1 t) (iblk m c 4 t) s f).trans ?_
  unfold lin proj
  simp only [xblk_apply, wqblk_apply, bqblk_apply]

/-- The keys computed from the blocks at point t. -/
theorem projK_apply (t : Fin cfg0.N) (s : Fin 2048) (f : Fin 1024) :
    projK m c t (ix2 s f)
      = proj (m ((c : Thread nD τ).loc main_arg0)) (m ((c : Thread nD τ).loc main_arg3)) (m ((c : Thread nD τ).loc main_arg4))
          (batchOf t) s f := by
  unfold projK
  refine (pay5_apply (iblk m c 0 t) (iblk m c 2 t) (iblk m c 5 t) s f).trans ?_
  unfold lin proj
  simp only [xblk_apply, wkblk_apply, bkblk_apply]

/-- The values computed from the blocks at point t. -/
theorem projV_apply (t : Fin cfg0.N) (s : Fin 2048) (f : Fin 1024) :
    projV m c t (ix2 s f)
      = proj (m ((c : Thread nD τ).loc main_arg0)) (m ((c : Thread nD τ).loc main_arg5)) (m ((c : Thread nD τ).loc main_arg6))
          (batchOf t) s f := by
  unfold projV
  refine (pay6_apply (iblk m c 0 t) (iblk m c 3 t) (iblk m c 6 t) s f).trans ?_
  unfold lin proj
  simp only [xblk_apply, wvblk_apply, bvblk_apply]

end Cert.KernelIdeal.Blocks

end
-- ==== Proof.LibScaleLaw.lean ====
/-
  A scale folded into one factor of an inner product, over the extended reals.

  Multiplication of extended reals is commutative and associative, and a factor c with 0 ≤ c < +∞ distributes over
  addition whatever the summands are (infinities included), so it moves across a finite sum: c · ∑ f = ∑ c · f, and
  hence ∑ (a · c) · b = (∑ a · b) · c.  That is how a kernel that scales its queries once, before the scores, meets a
  reference that scales each finished score; no finiteness of the entries is used.  For the scale 1/√1024 of a
  1024-wide head: √1024 = 32, so dividing by √1024 is multiplying by 1/32 on every extended real, and the f32 words
  0x44800000 and 0x3D000000 are the reals 1024 and 1/32.
-/
import Idealize.ShloMosaic.PureOps.Ideal

noncomputable section

namespace Cert.ScaleLaw

open Idealize.ShloMosaic

/-- A non-negative factor other than +∞ distributes over a finite sum of extended reals. -/
theorem mul_sum {ι : Type*} (s : Finset ι) (c : EReal) (h0 : 0 ≤ c) (hT : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 hT, ih]

/-- Scaling the left factor of every product by such a factor scales the whole sum of products by it. -/
theorem sum_scaled_left {ι : Type*} (s : Finset ι) (c : EReal) (h0 : 0 ≤ c) (hT : c ≠ ⊤) (a b : ι → EReal) :
    ∑ i ∈ s, (a i * c) * b i = (∑ i ∈ s, a i * b i) * c := by
  rw [mul_comm _ c, mul_sum s c h0 hT]
  refine Finset.sum_congr rfl (fun i _ => ?_)
  rw [mul_comm (a i) c, mul_assoc]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by √1024 is multiplying by 1/32, on every extended real. -/
theorem div_sqrt_1024 (x : EReal) :
    Ideal.div x (Ideal.sqrt ((1024 : ℝ) : EReal)) = x * ((1 / 32 : ℝ) : EReal) := by
  rw [sqrt_1024, Ideal.div_coe (by norm_num : (32 : ℝ) ≠ 0)]

/-- The factor 1/32 is non-negative. -/
theorem c_nonneg : (0 : EReal) ≤ ((1 / 32 : ℝ) : EReal) := by
  exact_mod_cast (by norm_num : (0 : ℝ) ≤ 1 / 32)

/-- The factor 1/32 is not +∞. -/
theorem c_ne_top : ((1 / 32 : ℝ) : EReal) ≠ ⊤ := EReal.coe_ne_top _

/-! ## The two float words of the scale -/

/-- The word 0x44800000 is the real number 1024. -/
theorem ofBits_1024 : Ideal.ofBits .f32 0x44800000#32 = ((1024 : ℝ) : EReal) := by
  simp [Ideal.ofBits, Ideal.ieee, -EReal.coe_mul]; norm_num

/-- The word 0x3D000000 is the real number 1/32. -/
theorem ofBits_inv32 : Ideal.ofBits .f32 0x3D000000#32 = ((1 / 32 : ℝ) : EReal) := by
  simp [Ideal.ofBits, Ideal.ieee, -EReal.coe_mul]; norm_num

end Cert.ScaleLaw

end
-- ==== Proof.ScoreLaw.lean ====
/-
  The kernel's scores are the reference's.  The kernel multiplies every query entry by the word of 1/32 before the
  inner product with a key; the reference divides the finished inner product by √(the word of 1024).  The factor is
  non-negative and finite, so it moves across the sum whatever the entries are, and √1024 = 32.
-/
import proofs.«163360_j33440615367216_2_alg».proof.Proof.Spec
import proofs.«163360_j33440615367216_2_alg».proof.Proof.LibScaleLaw

noncomputable section

namespace Cert.Attention

open Idealize.ShloMosaic Idealize.ShloMosaic.ValueIdx

/-- Scaled queries against keys give the reference's score. -/
theorem score_scaled (x : Arr3) (wq : Mat) (bq : Bias) (wk : Mat) (bk : Bias) (b : Fin 4) (q k : Fin 2048) :
    ∑ e : Fin 1024, (proj x wq bq b q e * Ideal.ofBits .f32 0x3D000000#32) * proj x wk bk b k e
      = score x wq bq wk bk b q k := by
  unfold score
  rw [Cert.ScaleLaw.ofBits_inv32, Cert.ScaleLaw.ofBits_1024, Cert.ScaleLaw.div_sqrt_1024,
    Cert.ScaleLaw.sum_scaled_left _ _ Cert.ScaleLaw.c_nonneg Cert.ScaleLaw.c_ne_top]

end Cert.Attention

end
-- ==== Proof.AttnValue.lean ====
/-
  The kernel's result array is the specification of the argument arrays.

  Grid point t is query tile t mod 4 of batch t / 4.  Its output block is rows 512·(t mod 4) … of slab t / 4 of the
  result, and what it writes there is the attention payload of the carried projections: entry (0, p, e) is the softmax
  row of query row 512·(t mod 4) + p of the batch against all its keys, attended over column e of its values.  The
  carried queries carry the factor 1/32, which the score law moves out of the inner product, so the scores are the
  specification's; everything after the scores is the same function on both sides.  The sixteen blocks tile the
  result array: row r of slab b lies in the block of point 4·b + r / 512.
-/
import proofs.«163360_j33440615367216_2_alg».proof.Proof.Blocks
import proofs.«163360_j33440615367216_2_alg».proof.Proof.ScoreLaw
import proofs.«163360_j33440615367216_2_alg».proof.Proof.Gen.KernelIdeal.Value

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx
open Cert.KernelIdeal.Pieces Cert.KernelIdeal.Carry Cert.KernelIdeal.PayValue Cert.KernelIdeal.Blocks Cert.Attention

variable (m : (ℓ : Loc nD τ sig) → Buf (Elt Ideal) ℓ) (ρ : Dev nD → PrngReg)

/-- The result array as the specification of the argument arrays. -/
def result (c : Dev nD) : S4x2048x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Row p of the query tile of point t, as a row of the batch: 512·(t mod 4) + p. -/
def rowOf (t : Fin cfg0.N) (p : Fin 512) : Fin 2048 := ⟨512 * (t.val % 4) + p.val, by have := p.isLt; omega⟩

/-- The first tile of a point's batch belongs to the same batch. -/
theorem batchOf_base (t : Fin cfg0.N) : batchOf (base t.val t.isLt) = batchOf t :=
  Fin.ext (by show 4 * (t.val / 4) / 4 = t.val / 4; omega)

/-- The 512 rows the query tile of point t reads of a scratch array: row p is row 512·(t mod 4) + p. -/
theorem rowsOf_apply (t : Fin cfg0.N) (X : Vec Ideal S2048x1024 .bf16) (p : Fin 512) (d : Fin 1024) :
    rowsOf (grid0.coords t) X (ix2 p d) = X (ix2 (rowOf t p) d) := by
  obtain ⟨-, -, -, -, -, -, -, -, -, -, -, -, -, -, -, -, -, -, o0, o1⟩ := idx_facts t
  unfold rowsOf
  show X ((Rect.unit (s := S2048x1024) (k0_off1 (grid0.coords t)) S512x1024.size (k0_off1_inb (grid0.coords t))).idx (ix2 p d)) = _
  refine congrArg X (funext fun a => Fin.ext ?_)
  match a with
  | ⟨0, _⟩ => show k0_off1 (grid0.coords t) (0 : Fin 2) + 1 * p.val = 512 * (t.val % 4) + p.val; omega
  | ⟨1, _⟩ => show k0_off1 (grid0.coords t) (1 : Fin 2) + 1 * d.val = d.val; omega

/-- Entry (0, p, e) of the block of point t sits at (t / 4, 512·(t mod 4) + p, e) of the result array. -/
theorem emb7 (t : Fin cfg0.N) (p : Fin 512) (e : Fin 1024) :
    ((cfg0.win 7).blk t).view.emb (ix3 (0 : Fin 1) p e) = ix3 (batchOf t) (rowOf t p) e := by
  obtain ⟨-, -, -, -, -, -, -, -, -, -, -, -, -, -, -, e0, e1, e2, -⟩ := idx_facts t
  refine funext fun a => Fin.ext ?_
  match a with
  | ⟨0, _⟩ => show win0_7.index t (0 : Fin 3) * 1 + 1 * 0 = t.val / 4; omega
  | ⟨1, _⟩ => show win0_7.index t (1 : Fin 3) * 512 + 1 * p.val = 512 * (t.val % 4) + p.val; omega
  | ⟨2, _⟩ => show win0_7.index t (2 : Fin 3) * 1024 + 1 * e.val = e.val; omega

/-- What point t leaves in its output block, entry by entry, is the specification at the entry's place in the array. -/
theorem block_eq (c : Dev nD) (t : Fin cfg0.N) (y : S1x512x1024.Idx) :
    k0_pay2 (rowsOf (grid0.coords t) (projQ m c (base t.val t.isLt))) (projK m c (base t.val t.isLt))
        (projV m c (base t.val t.isLt)) y
      = result m c (((cfg0.win 7).blk t).view.emb y) := by
  obtain ⟨u, p, e, rfl⟩ : ∃ (u : Fin 1) (p : Fin 512) (e : Fin 1024), y = ix3 u p e := ⟨y 0, y 1, y 2, eq_ix3 y⟩
  obtain rfl : u = 0 := Subsingleton.elim _ _
  rw [emb7]
  unfold result
  rw [G_apply]
  refine (pay2_apply _ _ _ p e).trans ?_
  refine congrArg₂ attendRow (funext fun j => ?_) (funext fun j => ?_)
  · simp only [rowsOf_apply, projQ_apply, projK_apply, batchOf_base]
    exact score_scaled _ _ _ _ _ (batchOf t) (rowOf t p) j
  · rw [projV_apply, batchOf_base]

/-- What point t writes back is block t of the specification. -/
theorem flushed_eq (c : Dev nD) (t : Fin cfg0.N) :
    (dats m 0 c).flushed 7 t = ((cfg0.win 7).blk t).view.read (Elt Ideal) (result m c) := by
  rw [Cert.KernelIdeal.Value.flushed7, out_eq]
  exact funext fun y => block_eq m c t y

/-- An index of the result array is in point t's block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v10).slice (win0_7.rect t)).set ↔ _
  rw [View.set_slice_whole, Rect.mem_set_unit]
  exact Iff.rfl

/-- Every index of the result array lies in some point's block: (b, r, e) in that of point 4·b + r / 512. -/
theorem cover (i : S4x2048x1024.Idx) :
    ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 1024 := (i 2).isLt
  have hN : cfg0.N = 16 := N_0
  let t : Fin cfg0.N := ⟨4 * (i 0).val + (i 1).val / 512, by omega⟩
  have tv : t.val = 4 * (i 0).val + (i 1).val / 512 := rfl
  obtain ⟨-, -, -, -, -, -, -, -, -, -, -, -, -, -, -, e0, e1, e2, -⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- So the result array ends holding the specification of the argument arrays. -/
theorem final (c : Dev nD) : (dats m 0 c).arrAt 7 cfg0.N = result m c :=
  (dats m 0 c).arrAt_eq_of_cover 7 (result m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.AttnValue

end
-- ==== Proof.RefG.lean ====
/-
  The reference's result is the specification, entry by entry.

  The reference computes the three linear layers of the whole input at once, the scores of every query against every
  key of its batch divided by √1024, the softmax of each score row (the row maximum taken from -∞ and then once more
  against -∞, which changes nothing; the row sum started at zero), and the weighted sum of the values.  Each stage
  is read at an index from the stage before; the composed index functions are the coordinates one expects.
-/
import proofs.«163360_j33440615367216_2_alg».proof.Proof.Gen.ReferenceIdeal.Read
import proofs.«163360_j33440615367216_2_alg».proof.Proof.Spec
import proofs.«163360_j33440615367216_2_alg».proof.Proof.LibRowReduce
import Idealize.ShloMosaic.Lib.ValueIdx
import Idealize.ShloMosaic.PureOps.Ideal.Laws

noncomputable section

namespace Cert.ReferenceIdeal.RefG

open Cert.ReferenceIdeal Cert.ReferenceIdeal.Gen Cert.ReferenceIdeal.Read
open Idealize.ShloMosaic Idealize.ShloMosaic.ValueIdx Cert.Attention

/-- The maximum of a fold's starting value with the fold is the fold. -/
theorem max_fold_self {ι : Type*} (s : Finset ι) (a : EReal) (f : ι → EReal) :
    max a (s.fold max a f) = s.fold max a f :=
  max_eq_right ((Finset.le_fold_max a).mpr (Or.inl le_rfl))

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-! ## The index functions, as coordinates -/

theorem lidx0 (b : Fin 4) (s : Fin 2048) (f k : Fin 1024) : lidx_main_v0 (ix3 b s f) k = ix3 b s k := funext fun a => Fin.ext (by match a with | ⟨0, _⟩ => rfl | ⟨1, _⟩ => rfl | ⟨2, _⟩ => rfl)
theorem ridx0 (b : Fin 4) (s : Fin 2048) (f k : Fin 1024) : ridx_main_v0 (ix3 b s f) k = ix2 f k := funext fun a => Fin.ext (by match a with | ⟨0, _⟩ => rfl | ⟨1, _⟩ => rfl)
theorem bidx2 (b : Fin 4) (s : Fin 2048) (f : Fin 1024) : idx_main_v1 (idx_main_v2 (ix3 b s f)) = ix1 f := funext fun a => Fin.ext (by match a with | ⟨0, _⟩ => rfl)
theorem lidx4 (b : Fin 4) (s : Fin 2048) (f k : Fin 1024) : lidx_main_v4 (ix3 b s f) k = ix3 b s k := funext fun a => Fin.ext (by match a with | ⟨0, _⟩ => rfl | ⟨1, _⟩ => rfl | ⟨2, _⟩ => rfl)
theorem ridx4 (b : Fin 4) (s : Fin 2048) (f k : Fin 1024) : ridx_main_v4 (ix3 b s f) k = ix2 f k := funext fun a => Fin.ext (by match a with | ⟨0, _⟩ => rfl | ⟨1, _⟩ => rfl)
theorem bidx6 (b : Fin 4) (s : Fin 2048) (f : Fin 1024) : idx_main_v5 (idx_main_v6 (ix3 b s f)) = ix1 f := funext fun a => Fin.ext (by match a with | ⟨0, _⟩ => rfl)
theorem lidx8 (b : Fin 4) (s : Fin 2048) (f k : Fin 1024) : lidx_main_v8 (ix3 b s f) k = ix3 b s k := funext fun a => Fin.ext (by match a with | ⟨0, _⟩ => rfl | ⟨1, _⟩ => rfl | ⟨2, _⟩ => rfl)
theorem ridx8 (b : Fin 4) (s : Fin 2048) (f k : Fin 1024) : ridx_main_v8 (ix3 b s f) k = ix2 f k := funext fun a => Fin.ext (by match a with | ⟨0, _⟩ => rfl | ⟨1, _⟩ => rfl)
theorem bidx10 (b : Fin 4) (s : Fin 2048) (f : Fin 1024) : idx_main_v9 (idx_main_v10 (ix3 b s f)) = ix1 f := funext fun a => Fin.ext (by match a with | ⟨0, _⟩ => rfl)
theorem lidx12 (b : Fin 4) (q k : Fin 2048) (e : Fin 1024) : lidx_main_v12 (ix3 b q k) e = ix3 b q e := funext fun a => Fin.ext (by match a with | ⟨0, _⟩ => rfl | ⟨1, _⟩ => rfl | ⟨2, _⟩ => rfl)
theorem ridx12 (b : Fin 4) (q k : Fin 2048) (e : Fin 1024) : ridx_main_v12 (ix3 b q k) e = ix3 b k e := funext fun a => Fin.ext (by match a with | ⟨0, _⟩ => rfl | ⟨1, _⟩ => rfl | ⟨2, _⟩ => rfl)
theorem idx1920 (b : Fin 4) (q k : Fin 2048) : idx_main_v19 (idx_main_v20 (ix3 b q k)) = ix2 b q := funext fun a => Fin.ext (by match a with | ⟨0, _⟩ => rfl | ⟨1, _⟩ => rfl)
theorem idx23 (b : Fin 4) (q k : Fin 2048) : idx_main_v23 (ix2 b q) k = ix3 b q k := funext fun a => Fin.ext (by match a with | ⟨0, _⟩ => rfl | ⟨1, _⟩ => rfl | ⟨2, _⟩ => rfl)
theorem idx2425 (b : Fin 4) (q k : Fin 2048) : idx_main_v24 (idx_main_v25 (ix3 b q k)) = ix2 b q := funext fun a => Fin.ext (by match a with | ⟨0, _⟩ => rfl | ⟨1, _⟩ => rfl)
theorem lidx27 (b : Fin 4) (q k : Fin 2048) (e : Fin 1024) : lidx_main_v27 (ix3 b q e) k = ix3 b q k := funext fun a => Fin.ext (by match a with | ⟨0, _⟩ => rfl | ⟨1, _⟩ => rfl | ⟨2, _⟩ => rfl)
theorem ridx27 (b : Fin 4) (q k : Fin 2048) (e : Fin 1024) : ridx_main_v27 (ix3 b q e) k = ix3 b k e := funext fun a => Fin.ext (by match a with | ⟨0, _⟩ => rfl | ⟨1, _⟩ => rfl | ⟨2, _⟩ => rfl)

/-! ## The three linear layers -/

/-- The queries at (b, s, f). -/
theorem q_apply (b : Fin 4) (s : Fin 2048) (f : Fin 1024) :
    val_main_v3 (F := Ideal) x0 x1 x2 (ix3 b s f) = proj x0 x1 x2 b s f := by
  rw [val_main_v3_apply, val_main_v0_apply, val_main_v2_apply, val_main_v1_apply]
  simp only [Ideal.addf_def, lidx0, ridx0, bidx2]
  rfl

/-- The keys at (b, s, f). -/
theorem k_apply (b : Fin 4) (s : Fin 2048) (f : Fin 1024) :
    val_main_v7 (F := Ideal) x0 x3 x4 (ix3 b s f) = proj x0 x3 x4 b s f := by
  rw [val_main_v7_apply, val_main_v4_apply, val_main_v6_apply, val_main_v5_apply]
  simp only [Ideal.addf_def, lidx4, ridx4, bidx6]
  rfl

/-- The values at (b, s, f). -/
theorem v_apply (b : Fin 4) (s : Fin 2048) (f : Fin 1024) :
    val_main_v11 (F := Ideal) x0 x5 x6 (ix3 b s f) = proj x0 x5 x6 b s f := by
  rw [val_main_v11_apply, val_main_v8_apply, val_main_v10_apply, val_main_v9_apply]
  simp only [Ideal.addf_def, lidx8, ridx8, bidx10]
  rfl

/-! ## Scores and the softmax rows -/

/-- The score of query q against key k in batch b. -/
theorem score_apply (b : Fin 4) (q k : Fin 2048) :
    val_main_v15 (F := Ideal) x0 x1 x2 x3 x4 (ix3 b q k) = score x0 x1 x2 x3 x4 b q k := by
  rw [val_main_v15_apply, val_main_v12_apply, val_main_v14_apply, val_main_v13_apply, val_main_cst_apply]
  simp only [Ideal.hostDivf_def, Ideal.hostUnary_sqrt_def, Ideal.ofBits_def, lidx12, ridx12, q_apply, k_apply]
  rfl

/-- The row maximum the softmax subtracts. -/
theorem max_apply (b : Fin 4) (q : Fin 2048) :
    val_main_v18 (F := Ideal) x0 x1 x2 x3 x4 (ix2 b q) = rowMax (fun k => score x0 x1 x2 x3 x4 b q k) := by
  rw [val_main_v18_apply, val_main_v17_apply, val_main_cst_1_apply]
  unfold val_main_v16
  rw [Cert.RowReduce.hostReduce_maximumf_last3 _ _ reducesTo_S4x2048x2048_S4x2048_d2 (by decide) h_S_ b q]
  simp only [Ideal.maximumf_def, Ideal.ofBits_def, val_main_cst_0_apply, score_apply]
  exact max_fold_self _ _ _

/-- The exponential of a score less its row's maximum. -/
theorem exp_stage (b : Fin 4) (q k : Fin 2048) :
    val_main_v22 (F := Ideal) x0 x1 x2 x3 x4 (ix3 b q k)
      = Ideal.exp (score x0 x1 x2 x3 x4 b q k - rowMax (fun j => score x0 x1 x2 x3 x4 b q j)) := by
  rw [val_main_v22_apply, val_main_v21_apply, val_main_v20_apply, val_main_v19_apply]
  simp only [Ideal.hostUnary_exp_def, Ideal.subf_def, idx1920, score_apply, max_apply]

/-- The row sum of those exponentials. -/
theorem sum_stage (b : Fin 4) (q : Fin 2048) :
    val_main_v23 (F := Ideal) x0 x1 x2 x3 x4 (ix2 b q)
      = ∑ k : Fin 2048, Ideal.exp (score x0 x1 x2 x3 x4 b q k - rowMax (fun j => score x0 x1 x2 x3 x4 b q j)) := by
  rw [val_main_v23_apply, val_main_cst_2_apply]
  simp only [Ideal.ofBits_def, Ideal.ofBits_zero_f32, zero_add, idx23, exp_stage]

/-- The softmax weight of key k for query q. -/
theorem weight_stage (b : Fin 4) (q k : Fin 2048) :
    val_main_v26 (F := Ideal) x0 x1 x2 x3 x4 (ix3 b q k)
      = Ideal.div (Ideal.exp (score x0 x1 x2 x3 x4 b q k - rowMax (fun j => score x0 x1 x2 x3 x4 b q j)))
          (∑ j : Fin 2048, Ideal.exp (score x0 x1 x2 x3 x4 b q j - rowMax (fun j' => score x0 x1 x2 x3 x4 b q j'))) := by
  rw [val_main_v26_apply, val_main_v25_apply, val_main_v24_apply]
  simp only [Ideal.hostDivf_def, idx2425, exp_stage, sum_stage]

/-! ## The result -/

/-- The reference's result array is the specification of the argument arrays. -/
theorem ref_eq_G : val_main_v27 (F := Ideal) x0 x1 x2 x3 x4 x5 x6 = G x0 x1 x2 x3 x4 x5 x6 := by
  funext i
  obtain ⟨b, q, e, rfl⟩ : ∃ (b : Fin 4) (q : Fin 2048) (e : Fin 1024), i = ix3 b q e := ⟨i 0, i 1, i 2, eq_ix3 i⟩
  rw [val_main_v27_apply, G_apply]
  unfold attendRow
  refine Finset.sum_congr rfl fun k _ => ?_
  rw [lidx27, ridx27, weight_stage, v_apply]

end Cert.ReferenceIdeal.RefG

end
-- ==== Proof.lean ====
/-
  Fused single-head attention against its plain reference, over the extended reals.

  Both programs take x : [4, 2048, 1024], three weight matrices [1024, 1024] and three bias vectors [1024], and return
  softmax((x·Wqᵀ + bq)·(x·Wkᵀ + bk)ᵀ / √1024)·(x·Wvᵀ + bv), batch by batch.  The kernel walks a grid of (batch, tile of
  512 queries): at the first tile of a batch it projects the whole batch to queries, keys and values, keeps them in
  three scratch arrays, and folds the factor 1/32 into the queries; every tile then forms its 512 × 2048 scores
  against the kept keys, takes each row's softmax and multiplies by the kept values.  The reference forms all scores
  at once and divides them by √1024.

  The two agree entry by entry: the scratch arrays hold their batch's projections at every tile (they are written at
  the batch's first tile and untouched until the next batch begins), so each output block is the attention of its
  512 query rows; the factor 1/32 is non-negative and finite, so it moves out of the inner product of a query row
  with a key row whatever the entries are, and √1024 = 32; after the scores the two programs apply the same function.
  No finiteness of the inputs is used.  The idealization changed nothing in the kernel, so there is nothing to preserve.
-/
import proofs.«163360_j33440615367216_2_alg».proof.Defs
import proofs.«163360_j33440615367216_2_alg».proof.Proof.Gen.Kernel
import proofs.«163360_j33440615367216_2_alg».proof.Proof.Gen.Kernel.Skeleton
import proofs.«163360_j33440615367216_2_alg».proof.Proof.Gen.Kernel.Launch
import proofs.«163360_j33440615367216_2_alg».proof.Proof.Gen.Kernel.Points
import proofs.«163360_j33440615367216_2_alg».proof.Proof.Gen.Kernel.Frame
import proofs.«163360_j33440615367216_2_alg».proof.Proof.Gen.KernelIdeal
import proofs.«163360_j33440615367216_2_alg».proof.Proof.Gen.KernelIdeal.Skeleton
import proofs.«163360_j33440615367216_2_alg».proof.Proof.Gen.KernelIdeal.Launch
import proofs.«163360_j33440615367216_2_alg».proof.Proof.Gen.KernelIdeal.Points
import proofs.«163360_j33440615367216_2_alg».proof.Proof.Gen.KernelIdeal.Frame
import proofs.«163360_j33440615367216_2_alg».proof.Proof.Gen.ReferenceIdeal
import proofs.«163360_j33440615367216_2_alg».proof.Proof.Gen.Pre_finite_inputs
import proofs.«163360_j33440615367216_2_alg».proof.Proof.Gen.KernelIdeal.Value
import proofs.«163360_j33440615367216_2_alg».proof.Proof.Gen.ReferenceIdeal.Run
import proofs.«163360_j33440615367216_2_alg».proof.Proof.Gen.ReferenceIdeal.Read
import proofs.«163360_j33440615367216_2_alg».proof.Proof.AttnValue
import proofs.«163360_j33440615367216_2_alg».proof.Proof.RefG
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the seven arguments, both programs end with the attention of the arguments in
    their result arrays: the kernel's array block by block, the reference's stage by stage. -/
theorem algebraic : Cert.algebraic_KernelIdeal_ReferenceIdeal := by
  intro m ρ m' ρ' _ hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.RefG.ref_eq_G, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
